-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x10240 : Shape := ⟨3, ![4, 256, 10240]⟩
abbrev S4x64x10240 : Shape := ⟨3, ![4, 64, 10240]⟩
abbrev S_ : Shape := ⟨0, ![]⟩

class Facts : Prop where
  bcast_S_S4x256x10240 : S_.BroadcastsInDim S4x256x10240 (![] : Fin 0 → Fin S4x256x10240.rank)
  reducesTo_S4x256x10240_S_d0_1_2 : S4x256x10240.ReducesTo [0, 1, 2] S_
  h_S_ : 0 < S_.numel
  bcast_S_S4x64x10240 : S_.BroadcastsInDim S4x64x10240 (![] : Fin 0 → Fin S4x64x10240.rank)
  reducesTo_S4x64x10240_S_d0_1_2 : S4x64x10240.ReducesTo [0, 1, 2] S_

variable [Facts]

def fn {F : FTy → Type} [FloatOps F] (main_arg0 : FVec F S4x256x10240 .f32) (main_arg1 : FVec F S4x64x10240 .f32) : IVec S_ 1 :=
  let main_v0 : FVec F S4x256x10240 .f32 := Host.absf main_arg0
  let main_cst : FVec F S_ .f32 := constant S_ .f32 0x7F800000#32
  let main_v1 : FVec F S4x256x10240 .f32 := broadcastInDim S4x256x10240 ![] bcast_S_S4x256x10240 main_cst
  let main_v2 : IVec S4x256x10240 1 := cmpf .olt main_v0 main_v1
  let main_c : IVec S_ 1 := constantI S_ 1 1#1
  let main_v3 : IVec S_ 1 := (fun x v => Host.reduce IntOp.andi x v reducesTo_S4x256x10240_S_d0_1_2 h_S_) main_v2 main_c
  let main_v4 : FVec F S4x64x10240 .f32 := Host.absf main_arg1
  let main_cst_0 : FVec F S_ .f32 := constant S_ .f32 0x7F800000#32
  let main_v5 : FVec F S4x64x10240 .f32 := broadcastInDim S4x64x10240 ![] bcast_S_S4x64x10240 main_cst_0
  let main_v6 : IVec S4x64x10240 1 := cmpf .olt main_v4 main_v5
  let main_c_1 : IVec S_ 1 := constantI S_ 1 1#1
  let main_v7 : IVec S_ 1 := (fun x v => Host.reduce IntOp.andi x v reducesTo_S4x64x10240_S_d0_1_2 h_S_) main_v6 main_c_1
  let main_v8 : IVec S_ 1 := andi main_v3 main_v7
  main_v8
-- ==== Kernel.lean ====
abbrev S4x256x10240 : Shape := ⟨3, ![4, 256, 10240]⟩
abbrev S4x64x10240 : Shape := ⟨3, ![4, 64, 10240]⟩
abbrev S4x1600x10240 : Shape := ⟨3, ![4, 1600, 10240]⟩
abbrev S1x256x10240 : Shape := ⟨3, ![1, 256, 10240]⟩
abbrev S1x8x10240 : Shape := ⟨3, ![1, 8, 10240]⟩
abbrev S1x160x10240 : Shape := ⟨3, ![1, 160, 10240]⟩
abbrev S256x10240 : Shape := ⟨2, ![256, 10240]⟩
abbrev S8x10240 : Shape := ⟨2, ![8, 10240]⟩
abbrev S8x1x10240 : Shape := ⟨3, ![8, 1, 10240]⟩
abbrev S8x20x10240 : Shape := ⟨3, ![8, 20, 10240]⟩
abbrev S160x10240 : Shape := ⟨2, ![160, 10240]⟩
abbrev S160x256 : Shape := ⟨2, ![160, 256]⟩
abbrev S160 : Shape := ⟨1, ![160]⟩
abbrev S160x1 : Shape := ⟨2, ![160, 1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S4x256x10240, .f32⟩
  | .hbm, ⟨1, _⟩ => ⟨S4x64x10240, .f32⟩
  | .hbm, ⟨2, _⟩ => ⟨S4x256x10240, .bf16⟩
  | .hbm, ⟨3, _⟩ => ⟨S4x1600x10240, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4x1600x10240, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4x1600x10240, .f32⟩
  | .local _ .vmem, ⟨0, _⟩ => ⟨S1x256x10240, .bf16⟩
  | .local _ .vmem, ⟨1, _⟩ => ⟨S1x256x10240, .bf16⟩
  | .local _ .vmem, ⟨2, _⟩ => ⟨S1x8x10240, .f32⟩
  | .local _ .vmem, ⟨3, _⟩ => ⟨S1x8x10240, .f32⟩
  | .local _ .vmem, ⟨4, _⟩ => ⟨S1x160x10240, .f32⟩
  | .local _ .vmem, ⟨5, _⟩ => ⟨S1x160x10240, .f32⟩
  | _, _ => ⟨S4x256x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v2 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

abbrev stage0_0 : Fin 2 → Memref sig .tc .vmem S1x256x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x160x10240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1x256x10240_S1x256x10240_0_0_0 : ∀ a, (![0, 0, 0] : Fin 3 → Nat) a + S1x256x10240.size a ≤ S1x256x10240.size a
  h_S1x256x10240 : 0 < S1x256x10240.numel
  shapeCasts_S1x256x10240_S256x10240 : S1x256x10240.ShapeCasts S256x10240
  inb_S1x8x10240_S1x8x10240_0_0_0 : ∀ a, (![0, 0, 0] : Fin 3 → Nat) a + S1x8x10240.size a ≤ S1x8x10240.size a
  h_S1x8x10240 : 0 < S1x8x10240.numel
  shapeCasts_S1x8x10240_S8x10240 : S1x8x10240.ShapeCasts S8x10240
  shapeCasts_S8x10240_S8x1x10240 : S8x10240.ShapeCasts S8x1x10240
  shapeCasts_S8x1x10240_S8x1x10240 : S8x1x10240.ShapeCasts S8x1x10240
  broadcasts_S8x1x10240_S8x20x10240 : S8x1x10240.Broadcasts S8x20x10240
  shapeCasts_S8x20x10240_S160x10240 : S8x20x10240.ShapeCasts S160x10240
  reduces_S160x256_S160 : S160x256.Reduces [1] S160
  shapeCasts_S160_S160x1 : S160.ShapeCasts S160x1
  broadcasts_S160x1_S160x256 : S160x1.Broadcasts S160x256
  inb_S1x160x10240_S1x160x10240_0_0_0 : ∀ a, (![0, 0, 0] : Fin 3 → Nat) a + S1x160x10240.size a ≤ S1x160x10240.size a
  h_S1x160x10240 : 0 < S1x160x10240.numel
  shapeCasts_S1x160x10240_S160x10240 : S1x160x10240.ShapeCasts S160x10240
  shapeCasts_S160x10240_S1x160x10240 : S160x10240.ShapeCasts S1x160x10240
  updateFits_S4x1600x10240_S4x256x10240 : S4x1600x10240.Slices (fun _ => 0) S4x256x10240
  h_S_ : 0 < S_.numel
  updateFits_S4x1600x10240_S4x64x10240 : S4x1600x10240.Slices (fun _ => 0) S4x64x10240
  dot_S160x10240_S256x10240_S160x256_1_1_0_0_n_n_wf : DotDims.WF S160x10240 S256x10240 S160x256 [1] [1] [0] [0] [] []
  dot_S160x256_S256x10240_S160x10240_1_0_0_1_n_n_wf : DotDims.WF S160x256 S256x10240 S160x10240 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x10240.size a ≤ S4x256x10240.size a
  hwx0_0 : ∀ i : grid0.Coords, EltTy.bits .bf16 = 32 ∨ (Rect.block (s := S4x256x10240) S1x256x10240.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x10240.size a ≤ S4x64x10240.size a
  hwx0_1 : ∀ i : grid0.Coords, EltTy.bits .f32 = 32 ∨ (Rect.block (s := S4x64x10240) S1x8x10240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x160x10240.size a ≤ S4x1600x10240.size a
  hwx0_2 : ∀ i : grid0.Coords, EltTy.bits .f32 = 32 ∨ (Rect.block (s := S4x1600x10240) S1x160x10240.size (cc0_transform_2 i) (hinb0_2 i)).WholeWords (EltTy.packing .f32)

variable [Facts₀]

def dot_S160x10240_S256x10240_S160x256_1_1_0_0_n_n : DotDims S160x10240 S256x10240 S160x256 where
  lhsContracting := [1]
  rhsContracting := [1]
  lhsNonContracting := [0]
  rhsNonContracting := [0]
  lhsBatch := []
  rhsBatch := []
  wf := dot_S160x10240_S256x10240_S160x256_1_1_0_0_n_n_wf
def dot_S160x256_S256x10240_S160x10240_1_0_0_1_n_n : DotDims S160x256 S256x10240 S160x10240 where
  lhsContracting := [1]
  rhsContracting := [0]
  lhsNonContracting := [0]
  rhsNonContracting := [1]
  lhsBatch := []
  rhsBatch := []
  wf := dot_S160x256_S256x10240_S160x10240_1_0_0_1_n_n_wf

abbrev win0_0 : Pipeline.Window sig grid0 :=
  Pipeline.Window.ofSpec (Memref.whole main_v0) S1x256x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x10240.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x160x10240.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x10240 : Shape := ⟨3, ![4, 256, 10240]⟩
abbrev S4x64x10240 : Shape := ⟨3, ![4, 64, 10240]⟩
abbrev S4x64x20x10240 : Shape := ⟨4, ![4, 64, 20, 10240]⟩
abbrev S4x1280x10240 : Shape := ⟨3, ![4, 1280, 10240]⟩
abbrev S4x1280x256 : Shape := ⟨3, ![4, 1280, 256]⟩
abbrev S_ : Shape := ⟨0, ![]⟩
abbrev S4x1280 : Shape := ⟨2, ![4, 1280]⟩
abbrev S4x1280x1 : Shape := ⟨3, ![4, 1280, 1]⟩
abbrev S4x1600x10240 : Shape := ⟨3, ![4, 1600, 10240]⟩

abbrev nBuf : Space → Nat
  | .hbm => 25
  | .vmem => 0
  | .smem => 0
  | _ => 0

abbrev bufTy : (tb : Table) → Fin (tcTables nBuf tb) → BufTy
  | .hbm, ⟨0, _⟩ => ⟨S4x256x10240, .f32⟩
  | .hbm, ⟨1, _⟩ => ⟨S4x64x10240, .f32⟩
  | .hbm, ⟨2, _⟩ => ⟨S4x64x20x10240, .f32⟩
  | .hbm, ⟨3, _⟩ => ⟨S4x1280x10240, .f32⟩
  | .hbm, ⟨4, _⟩ => ⟨S4x1280x256, .f32⟩
  | .hbm, ⟨5, _⟩ => ⟨S_, .f32⟩
  | .hbm, ⟨6, _⟩ => ⟨S4x1280x256, .f32⟩
  | .hbm, ⟨7, _⟩ => ⟨S4x1280x256, .f32⟩
  | .hbm, ⟨8, _⟩ => ⟨S_, .f32⟩
  | .hbm, ⟨9, _⟩ => ⟨S4x1280, .f32⟩
  | .hbm, ⟨10, _⟩ => ⟨S_, .f32⟩
  | .hbm, ⟨11, _⟩ => ⟨S4x1280, .f32⟩
  | .hbm, ⟨12, _⟩ => ⟨S4x1280, .f32⟩
  | .hbm, ⟨13, _⟩ => ⟨S4x1280x1, .f32⟩
  | .hbm, ⟨14, _⟩ => ⟨S4x1280x256, .f32⟩
  | .hbm, ⟨15, _⟩ => ⟨S4x1280x256, .f32⟩
  | .hbm, ⟨16, _⟩ => ⟨S4x1280x256, .f32⟩
  | .hbm, ⟨17, _⟩ => ⟨S_, .f32⟩
  | .hbm, ⟨18, _⟩ => ⟨S4x1280, .f32⟩
  | .hbm, ⟨19, _⟩ => ⟨S4x1280x1, .f32⟩
  | .hbm, ⟨20, _⟩ => ⟨S4x1280x256, .f32⟩
  | .hbm, ⟨21, _⟩ => ⟨S4x1280x256, .f32⟩
  | .hbm, ⟨22, _⟩ => ⟨S4x1280x10240, .f32⟩
  | .hbm, ⟨23, _⟩ => ⟨S4x1280x10240, .f32⟩
  | .hbm, ⟨24, _⟩ => ⟨S4x1600x10240, .f32⟩
  | _, _ => ⟨S4x256x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  bcast_S4x64x10240_S4x64x20x10240_0_1_3 : S4x64x10240.BroadcastsInDim S4x64x20x10240 (![0, 1, 3] : Fin 3 → Fin S4x64x20x10240.rank)
  shapeCasts_S4x64x20x10240_S4x1280x10240 : S4x64x20x10240.ShapeCasts S4x1280x10240
  bcast_S_S4x1280x256 : S_.BroadcastsInDim S4x1280x256 (![] : Fin 0 → Fin S4x1280x256.rank)
  reducesTo_S4x1280x256_S4x1280_d2 : S4x1280x256.ReducesTo [2] S4x1280
  h_S_ : 0 < S_.numel
  bcast_S_S4x1280 : S_.BroadcastsInDim S4x1280 (![] : Fin 0 → Fin S4x1280.rank)
  bcast_S4x1280_S4x1280x1_0_1 : S4x1280.BroadcastsInDim S4x1280x1 (![0, 1] : Fin 2 → Fin S4x1280x1.rank)
  bcast_S4x1280x1_S4x1280x256_0_1_2 : S4x1280x1.BroadcastsInDim S4x1280x256 (![0, 1, 2] : Fin 3 → Fin S4x1280x256.rank)
  concatenates_S4x256x10240_S4x64x10240_S4x1280x10240_S4x1600x10240_d1 : Shape.Concatenates [S4x256x10240, S4x64x10240, S4x1280x10240] S4x1600x10240 1
  dot_S4x1280x10240_S4x256x10240_S4x1280x256_2_2_1_1_0_0_wf : DotDims.WF S4x1280x10240 S4x256x10240 S4x1280x256 [2] [2] [1] [1] [0] [0]
  dot_S4x1280x256_S4x256x10240_S4x1280x10240_2_1_1_2_0_0_wf : DotDims.WF S4x1280x256 S4x256x10240 S4x1280x10240 [2] [1] [1] [2] [0] [0]

variable [Facts₀]

def dot_S4x1280x10240_S4x256x10240_S4x1280x256_2_2_1_1_0_0 : DotDims S4x1280x10240 S4x256x10240 S4x1280x256 where
  lhsContracting := [2]
  rhsContracting := [2]
  lhsNonContracting := [1]
  rhsNonContracting := [1]
  lhsBatch := [0]
  rhsBatch := [0]
  wf := dot_S4x1280x10240_S4x256x10240_S4x1280x256_2_2_1_1_0_0_wf
def dot_S4x1280x256_S4x256x10240_S4x1280x10240_2_1_1_2_0_0 : DotDims S4x1280x256 S4x256x10240 S4x1280x10240 where
  lhsContracting := [2]
  rhsContracting := [1]
  lhsNonContracting := [1]
  rhsNonContracting := [2]
  lhsBatch := [0]
  rhsBatch := [0]
  wf := dot_S4x1280x256_S4x256x10240_S4x1280x10240_2_1_1_2_0_0_wf

class Facts : Prop extends Facts₀ where

variable [Facts]
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.LibPairLayout.lean ====
/-
  Arrays indexed by a pair of rows, read at an entry.

  A pairwise computation holds, for a block of `a` rows against `b` rows, one vector of `c` numbers per
  pair: an array of shape [a, b, c]. Such an array is built from a per-row matrix [a, c] (constant along
  the second axis), from a per-row matrix [b, c] (constant along the first), or from one vector [c]
  (constant along both); it is flattened to [a·b, c], pair (p, q) going to row p·b + q, for a matrix
  product over all pairs at once, and cut back. Each of these is read here at an entry. Generic in the sizes.
-/
import Idealize.ShloMosaic.Lib.ValueIdx
import Idealize.ShloMosaic.Lib.ValueLayout
import Idealize.ShloMosaic.Lib.Pipeline.Value

noncomputable section

namespace Cert.PairLayout

open Idealize.ShloMosaic Idealize.ShloMosaic.ValueIdx

variable {α : Type} {a b c n : ℕ}

/-- Pair (p, q) is row p·b + q of the flattened array. -/
theorem flat_lt (hn : n = a * b) (p : Fin a) (q : Fin b) : p.val * b + q.val < n := by
  have hp := p.isLt
  have hq := q.isLt
  calc p.val * b + q.val < p.val * b + b := by omega
    _ = (p.val + 1) * b := by rw [Nat.add_mul, Nat.one_mul]
    _ ≤ a * b := Nat.mul_le_mul_right b hp
    _ = n := hn.symm

/-- The row of the flattened array that holds pair (p, q). -/
abbrev flatRow (hn : n = a * b) (p : Fin a) (q : Fin b) : Fin n := ⟨p.val * b + q.val, flat_lt hn p q⟩

/-- A matrix [a, c] spread along a new second axis reads, at (p, q, o), its entry (p, o). -/
theorem spread_first (P : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (q : Fin b) (o : Fin c) :
    broadcastTo ⟨3, ![a, b, c]⟩ (shapeCast ⟨3, ![a, 1, c]⟩ P h1) h2 (ix3 p q o) = P (ix2 p o) := by
  refine (broadcastTo_apply _ h2 (ix3 p q o) (ix3 p (0 : Fin 1) o) fun ax => ?_).trans ?_
  · match ax with
    | ⟨0, _⟩ =>
      show p.val = if a = 1 then 0 else p.val
      split
      · have := p.isLt; omega
      · rfl
    | ⟨1, _⟩ => rfl
    | ⟨2, _⟩ =>
      show o.val = if c = 1 then 0 else o.val
      split
      · have := o.isLt; omega
      · rfl
  · exact shapeCast_apply P h1 _ _ (by
      rw [Shape.rowMajor_val_two, Shape.rowMajor_val_three]
      show p.val * c + o.val = (p.val * 1 + 0) * c + o.val
      rw [Nat.mul_one, Nat.add_zero])

/-- A matrix [b, c] spread along a new first axis reads, at (p, q, o), its entry (q, o). -/
theorem spread_second (Q : (⟨2, ![b, c]⟩ : Shape).Idx → α)
    (h1 : (⟨2, ![b, c]⟩ : Shape).ShapeCasts ⟨3, ![1, b, c]⟩) (h2 : (⟨3, ![1, b, c]⟩ : Shape).Broadcasts ⟨3, ![a, b, c]⟩)
    (p : Fin a) (q : Fin b) (o : Fin c) :
    broadcastTo ⟨3, ![a, b, c]⟩ (shapeCast ⟨3, ![1, b, c]⟩ Q h1) h2 (ix3 p q o) = Q (ix2 q o) := by
  refine (broadcastTo_apply _ h2 (ix3 p q o) (ix3 (0 : Fin 1) q o) fun ax => ?_).trans ?_
  · match ax with
    | ⟨0, _⟩ => rfl
    | ⟨1, _⟩ =>
      show q.val = if b = 1 then 0 else q.val
      split
      · have := q.isLt; omega
      · rfl
    | ⟨2, _⟩ =>
      show o.val = if c = 1 then 0 else o.val
      split
      · have := o.isLt; omega
      · rfl
  · exact shapeCast_ab_1ab_apply Q h1 0 q o

/-- A vector [c] spread over both pair axes reads, at (p, q, o), its entry o. -/
theorem spread_both (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (o : Fin c) :
    broadcastTo ⟨3, ![a, b, c]⟩ (shapeCast ⟨3, ![1, 1, c]⟩ v h1) h2 (ix3 p q o) = v (ix1 o) := by
  refine (broadcastTo_apply _ h2 (ix3 p q o) (ix3 (0 : Fin 1) (0 : Fin 1) o) fun ax => ?_).trans ?_
  · match ax with
    | ⟨0, _⟩ => rfl
    | ⟨1, _⟩ => rfl
    | ⟨2, _⟩ =>
      show o.val = if c = 1 then 0 else o.val
      split
      · have := o.isLt; omega
      · rfl
  · exact shapeCast_apply v h1 _ _ (by
      rw [Shape.rowMajor_val_one, Shape.rowMajor_val_three]
      show o.val = (0 * 1 + 0) * c + o.val
      omega)

/-- A vector [c] spread over the rows of a matrix [n, c] reads, at (r, o), its entry o. -/
theorem spread_rows (v : (⟨1, ![c]⟩ : Shape).Idx → α)
    (h1 : (⟨1, ![c]⟩ : Shape).ShapeCasts ⟨2, ![1, c]⟩) (h2 : (⟨2, ![1, c]⟩ : Shape).Broadcasts ⟨2, ![n, c]⟩)
    (r : Fin n) (o : Fin c) :
    broadcastTo ⟨2, ![n, c]⟩ (shapeCast ⟨2, ![1, c]⟩ v h1) h2 (ix2 r o) = v (ix1 o) :=
  (broadcastTo_1b_ab_apply _ h2 r o).trans (shapeCast_a_1a_apply v h1 0 o)

/-- The pair array flattened: row p·b + q holds pair (p, q). -/
theorem flatten_apply (X : (⟨3, ![a, b, c]⟩ : Shape).Idx → α) (hn : n = a * b)
    (h : (⟨3, ![a, b, c]⟩ : Shape).ShapeCasts ⟨2, ![n, c]⟩) (p : Fin a) (q : Fin b) (o : Fin c) :
    shapeCast ⟨2, ![n, c]⟩ X h (ix2 (flatRow hn p q) o) = X (ix3 p q o) :=
  shapeCast_apply X h _ _ (by
    rw [Shape.rowMajor_val_three, Shape.rowMajor_val_two]
    rfl)

/-- A matrix over all pairs cut back to the pair axes: pair (p, q) is row p·b + q. -/
theorem unflatten_apply (Y : (⟨2, ![n, c]⟩ : Shape).Idx → α) (hn : n = a * b)
    (h : (⟨2, ![n, c]⟩ : Shape).ShapeCasts ⟨3, ![a, b, c]⟩) (p : Fin a) (q : Fin b) (o : Fin c) :
    shapeCast ⟨3, ![a, b, c]⟩ Y h (ix3 p q o) = Y (ix2 (flatRow hn p q) o) :=
  shapeCast_apply Y h _ _ (by
    rw [Shape.rowMajor_val_three, Shape.rowMajor_val_two]
    rfl)

end Cert.PairLayout

end
-- ==== Proof.Attn.lean ====
/-
  Attention of one query row over a table of key rows, on the extended reals.

  For a query row q (D numbers) and n key rows K k (D numbers each) the scaled scores are s k = (Σ_d q d · K k d) · c. Their
  greatest, taken from a floor b, is t = max(b, s 0, …, s (n−1)); the mass of key k is exp(s k − t) and its weight the mass
  divided by the sum of all masses. The output at column d is Σ_k weight k · K k d — the keys double as values — and the row
  itself is added: `fused`. Every operation is the exact one of the extended reals, so these definitions are total; nothing
  here asks the entries to be finite. The floor is a parameter: both programs start the maximum from the same word (−∞), and
  what is proved below is all that is used of it: taking the maximum with the floor once more changes nothing.
-/
import Idealize.ShloMosaic.PureOps.Ideal

noncomputable section

open scoped BigOperators

namespace Cert.Attn

open Idealize.ShloMosaic

variable {n D : ℕ}

/-- The scaled scores of the query row against every key row. -/
def scores (c : EReal) (q : Fin D → EReal) (K : Fin n → Fin D → EReal) : Fin n → EReal :=
  fun k => (∑ d : Fin D, q d * K k d) * c

/-- The greatest score, from the floor `b`. -/
def top (b : EReal) (s : Fin n → EReal) : EReal := (Finset.univ : Finset (Fin n)).fold max b s

/-- The mass of key `k`: the exponential of its score's distance below the greatest. -/
def mass (b : EReal) (s : Fin n → EReal) : Fin n → EReal := fun k => Ideal.exp (s k - top b s)

/-- The weight of key `k`: its share of the total mass. -/
def weight (b : EReal) (s : Fin n → EReal) : Fin n → EReal := fun k => Ideal.div (mass b s k) (∑ k' : Fin n, mass b s k')

/-- The weighted sum of the key rows at column `d`, plus the query row's own entry there. -/
def fused (b c : EReal) (q : Fin D → EReal) (K : Fin n → Fin D → EReal) (d : Fin D) : EReal :=
  (∑ k : Fin n, weight b (scores c q K) k * K k d) + q d

/-- The greatest score is at least the floor, so the maximum with the floor once more is the greatest score. -/
theorem max_floor_top (b : EReal) (s : Fin n → EReal) : max b (top b s) = top b s :=
  max_eq_right ((Finset.le_fold_max b).mpr (Or.inl le_rfl))

end Cert.Attn

end
-- ==== Proof.KernelRow.lean ====
/-
  The kernel's stored block, entry by entry.

  A block of eight query rows is repeated twenty times each, row p of the block becoming rows 20·p … 20·p+19 of a 160-row
  matrix (row 20·p + r is written `qrow p r`). Against the 256 key rows of the batch, each of the 160 rows goes through
  scores, row maximum, exponentials, row sum, quotient and the weighted sum of the key rows, and the repeated row is added.
  Read at row 20·p + r and column o this is `Attn.fused` of query row p and the key table, at o: the matrix products into a
  zero accumulator are plain sums over the contracted coordinate, the lane reductions kept as columns and broadcast back are the row's maximum and sum
  at every column, and a change of float format is the identity on the extended reals.
-/
import proofs.«128927_j21234318311826_2_alg».proof.Proof.Gen.KernelIdeal.Skeleton
import proofs.«128927_j21234318311826_2_alg».proof.Proof.LibColumn
import proofs.«128927_j21234318311826_2_alg».proof.Proof.LibPairLayout
import proofs.«128927_j21234318311826_2_alg».proof.Proof.Attn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- Row 20·p + r of the 160 repeated rows. -/
abbrev qrow (p : Fin 8) (r : Fin 20) : Fin 160 := Cert.PairLayout.flatRow (a := 8) (b := 20) (n := 160) rfl p r

/-- The floor the row maximum starts from, and the scale of the scores: the two words the body names. -/
abbrev floorWord : EReal := Ideal.ofBits .f32 0xFF800000#32
abbrev scaleWord : EReal := Ideal.ofBits .f32 0x3C21E89B#32

/-- Eight rows repeated twenty times each: row 20·p + r of the result is row p. -/
theorem repeat_apply {α : Type} (v : S8x10240.Idx → α) (h1 : S8x10240.ShapeCasts S8x1x10240) (h1' : S8x1x10240.ShapeCasts S8x1x10240)
    (h2 : S8x1x10240.Broadcasts S8x20x10240) (h3 : S8x20x10240.ShapeCasts S160x10240) (p : Fin 8) (r : Fin 20) (o : Fin 10240) :
    shapeCast S160x10240 (broadcastTo S8x20x10240 (shapeCast S8x1x10240 (shapeCast S8x1x10240 v h1) h1') h2) h3 (ix2 (qrow p r) o)
      = v (ix2 p o) := by
  rw [shapeCast_self (shapeCast S8x1x10240 v h1) h1']
  exact (Cert.PairLayout.flatten_apply _ rfl h3 p r o).trans (Cert.PairLayout.spread_first v h1 h2 p r o)

/-- The operands' coordinates off the contracted axis, for the two products: the left operand's row is the result's row,
    the right operand's free coordinate the result's column. -/
theorem nt_lhs0 (j : S160x256.Idx) (c : dot_S160x10240_S256x10240_S160x256_1_1_0_0_n_n.contr.Idx) : (dot_S160x10240_S256x10240_S160x256_1_1_0_0_n_n.lhsIdx j c 0).val = (j 0).val := by
  unfold DotDims.lhsIdx
  rw [dif_neg (show ¬(0 : Fin S160x10240.rank) ∈ dot_S160x10240_S256x10240_S160x256_1_1_0_0_n_n.lhsBatch by decide), dif_pos (show (0 : Fin S160x10240.rank) ∈ dot_S160x10240_S256x10240_S160x256_1_1_0_0_n_n.lhsNonContracting by decide)]
  rfl
theorem nt_rhs0 (j : S160x256.Idx) (c : dot_S160x10240_S256x10240_S160x256_1_1_0_0_n_n.contr.Idx) : (dot_S160x10240_S256x10240_S160x256_1_1_0_0_n_n.rhsIdx j c 0).val = (j 1).val := by
  unfold DotDims.rhsIdx
  rw [dif_neg (show ¬(0 : Fin S256x10240.rank) ∈ dot_S160x10240_S256x10240_S160x256_1_1_0_0_n_n.rhsBatch by decide), dif_pos (show (0 : Fin S256x10240.rank) ∈ dot_S160x10240_S256x10240_S160x256_1_1_0_0_n_n.rhsNonContracting by decide)]
  rfl
theorem nn_lhs0 (j : S160x10240.Idx) (c : dot_S160x256_S256x10240_S160x10240_1_0_0_1_n_n.contr.Idx) : (dot_S160x256_S256x10240_S160x10240_1_0_0_1_n_n.lhsIdx j c 0).val = (j 0).val := by
  unfold DotDims.lhsIdx
  rw [dif_neg (show ¬(0 : Fin S160x256.rank) ∈ dot_S160x256_S256x10240_S160x10240_1_0_0_1_n_n.lhsBatch by decide), dif_pos (show (0 : Fin S160x256.rank) ∈ dot_S160x256_S256x10240_S160x10240_1_0_0_1_n_n.lhsNonContracting by decide)]
  rfl
theorem nn_rhs1 (j : S160x10240.Idx) (c : dot_S160x256_S256x10240_S160x10240_1_0_0_1_n_n.contr.Idx) : (dot_S160x256_S256x10240_S160x10240_1_0_0_1_n_n.rhsIdx j c 1).val = (j 1).val := by
  unfold DotDims.rhsIdx
  rw [dif_neg (show ¬(1 : Fin S256x10240.rank) ∈ dot_S160x256_S256x10240_S160x10240_1_0_0_1_n_n.rhsBatch by decide), dif_pos (show (1 : Fin S256x10240.rank) ∈ dot_S160x256_S256x10240_S160x10240_1_0_0_1_n_n.rhsNonContracting by decide)]
  rfl

/-- The product of the 160 rows with the TRANSPOSED key table, into zero: entry (q, k) is the sum over the columns d of
    row q times key row k. -/
theorem scores_apply {φ₁ φ₂ : FTy} (Q : FVec Ideal S160x10240 φ₁) (Kt : FVec Ideal S256x10240 φ₂) (q : Fin 160) (k : Fin 256) :
    matmul dot_S160x10240_S256x10240_S160x256_1_1_0_0_n_n none Q Kt (constant S160x256 .f32 0x00000000#32) (ix2 q k)
      = ∑ d : Fin 10240, Q (ix2 q d) * Kt (ix2 k d) := by
  simp only [matmul]
  rw [Ideal.matmul_constant_zero_apply, ← Equiv.sum_comp (contrEquiv1 dot_S160x10240_S256x10240_S160x256_1_1_0_0_n_n 10240 rfl rfl).symm]
  refine Finset.sum_congr rfl fun d _ => ?_
  have hk := contrEquiv1_symm_val dot_S160x10240_S256x10240_S160x256_1_1_0_0_n_n 10240 rfl rfl d
  have el : dot_S160x10240_S256x10240_S160x256_1_1_0_0_n_n.lhsIdx (ix2 q k) ((contrEquiv1 dot_S160x10240_S256x10240_S160x256_1_1_0_0_n_n 10240 rfl rfl).symm d) = ix2 q d := funext fun a => Fin.ext (by
    match a with
    | ⟨0, _⟩ => exact nt_lhs0 _ _
    | ⟨1, _⟩ => exact (dot_S160x10240_S256x10240_S160x256_1_1_0_0_n_n.lhsIdx_val_of_single rfl _ _).trans hk)
  have er : dot_S160x10240_S256x10240_S160x256_1_1_0_0_n_n.rhsIdx (ix2 q k) ((contrEquiv1 dot_S160x10240_S256x10240_S160x256_1_1_0_0_n_n 10240 rfl rfl).symm d) = ix2 k d := funext fun a => Fin.ext (by
    match a with
    | ⟨0, _⟩ => exact nt_rhs0 _ _
    | ⟨1, _⟩ => exact (dot_S160x10240_S256x10240_S160x256_1_1_0_0_n_n.rhsIdx_val_of_single rfl _ _).trans hk)
  rw [el, er]

/-- The product of a 160 × 256 matrix with the key table, into zero: entry (q, o) is the sum over the keys k of entry
    (q, k) times key row k at column o. -/
theorem mix_apply {φ₁ φ₂ : FTy} (W : FVec Ideal S160x256 φ₁) (Kt : FVec Ideal S256x10240 φ₂) (q : Fin 160) (o : Fin 10240) :
    matmul dot_S160x256_S256x10240_S160x10240_1_0_0_1_n_n none W Kt (constant S160x10240 .f32 0x00000000#32) (ix2 q o)
      = ∑ k : Fin 256, W (ix2 q k) * Kt (ix2 k o) := by
  simp only [matmul]
  rw [Ideal.matmul_constant_zero_apply, ← Equiv.sum_comp (contrEquiv1 dot_S160x256_S256x10240_S160x10240_1_0_0_1_n_n 256 rfl rfl).symm]
  refine Finset.sum_congr rfl fun k _ => ?_
  have hk := contrEquiv1_symm_val dot_S160x256_S256x10240_S160x10240_1_0_0_1_n_n 256 rfl rfl k
  have el : dot_S160x256_S256x10240_S160x10240_1_0_0_1_n_n.lhsIdx (ix2 q o) ((contrEquiv1 dot_S160x256_S256x10240_S160x10240_1_0_0_1_n_n 256 rfl rfl).symm k) = ix2 q k := funext fun a => Fin.ext (by
    match a with
    | ⟨0, _⟩ => exact nn_lhs0 _ _
    | ⟨1, _⟩ => exact (dot_S160x256_S256x10240_S160x10240_1_0_0_1_n_n.lhsIdx_val_of_single rfl _ _).trans hk)
  have er : dot_S160x256_S256x10240_S160x10240_1_0_0_1_n_n.rhsIdx (ix2 q o) ((contrEquiv1 dot_S160x256_S256x10240_S160x10240_1_0_0_1_n_n 256 rfl rfl).symm k) = ix2 k o := funext fun a => Fin.ext (by
    match a with
    | ⟨0, _⟩ => exact (dot_S160x256_S256x10240_S160x10240_1_0_0_1_n_n.rhsIdx_val_of_single rfl _ _).trans hk
    | ⟨1, _⟩ => exact nn_rhs1 _ _)
  rw [el, er]

/-- A column of 160 numbers broadcast over 256 columns: entry (q, k) is the column's entry q. -/
theorem column_apply {α : Type} (v : S160.Idx → α) (h1 : S160.ShapeCasts S160x1) (h2 : S160x1.Broadcasts S160x256) (q : Fin 160) (k : Fin 256) :
    broadcastTo S160x256 (shapeCast S160x1 v h1) h2 (ix2 q k) = v (ix1 q) := by
  refine (broadcastTo_apply _ h2 (ix2 q k) (ix2 q (0 : Fin 1)) fun ax => ?_).trans (Cert.Layout.cast_vec_col_apply v h1 q 0)
  match ax with
  | ⟨0, _⟩ =>
    show q.val = if (160 : ℕ) = 1 then 0 else q.val
    rw [if_neg (by decide)]
  | ⟨1, _⟩ => rfl

/-- The index with column k' inserted after row q is (q, k'). -/
theorem lift_row (h : S160x256.Reduces [1] S160) (q : Fin 160) (k' : Fin 256) : h.lift (ix1 q) k' = ix2 q k' :=
  funext fun a => Fin.ext (by match a with | ⟨0, _⟩ => rfl | ⟨1, _⟩ => rfl)

/-- The rows' maxima, from the floor word, kept as a column and broadcast back: at (q, k) the greatest entry of row q. -/
theorem rowmax_apply (S : FVec Ideal S160x256 .f32) (h : S160x256.Reduces [1] S160) (hφ : FKind.Formats .f32)
    (hacc : (0xFF800000#32 : BitVec 32) = FKind.maximumf.neutral .f32 hφ)
    (h1 : S160.ShapeCasts S160x1) (h2 : S160x1.Broadcasts S160x256) (q : Fin 160) (k : Fin 256) :
    broadcastTo S160x256 (shapeCast S160x1 (multiReduction .maximumf [1] S160 S 0xFF800000#32 h hφ hacc) h1) h2 (ix2 q k)
      = Cert.Attn.top floorWord (fun k' : Fin 256 => S (ix2 q k')) := by
  refine (column_apply _ h1 h2 q k).trans ((Ideal.multiReduction_maximumf_single S 0xFF800000#32 h hφ hacc (ix1 q)).trans ?_)
  unfold Cert.Attn.top
  exact congrArg (fun f : Fin 256 → EReal => (Finset.univ : Finset (Fin 256)).fold max (Ideal.ofBits .f32 0xFF800000#32) f)
    (funext fun k' => congrArg S (lift_row h q k'))

/-- The rows' sums kept as a column and broadcast back: at (q, k) the sum of row q. -/
theorem rowsum_apply (E : FVec Ideal S160x256 .f32) (h : S160x256.Reduces [1] S160) (hφ : FKind.Formats .f32)
    (hacc : (0x00000000#32 : BitVec 32) = FKind.add.neutral .f32 hφ)
    (h1 : S160.ShapeCasts S160x1) (h2 : S160x1.Broadcasts S160x256) (q : Fin 160) (k : Fin 256) :
    broadcastTo S160x256 (shapeCast S160x1 (multiReduction .add [1] S160 E 0x00000000#32 h hφ hacc) h1) h2 (ix2 q k)
      = ∑ k' : Fin 256, E (ix2 q k') := by
  refine (column_apply _ h1 h2 q k).trans ((Ideal.multiReduction_add_single E 0x00000000#32 h hφ hacc (ix1 q)).trans ?_)
  exact Finset.sum_congr rfl fun k' _ => congrArg E (lift_row h q k')

end Cert.KernelIdeal.Row

end
-- ==== Proof.KernelPay.lean ====
/-
  The stored block as `Attn.fused`: the body's whole arithmetic at one entry.

  Three steps. The scaled scores of a row against the key table are `Attn.scores` of the row and the table. From ANY 160 × 256
  matrix whose row q is known, the body's maximum, exponential, sum and quotient leave at (q, k) the weight of key k
  (`Attn.weight`): the maximum and the sum are lane reductions whose columns are broadcast back. The weighted sum of the key
  rows is the second product, and the repeated query row is added last.
-/
import proofs.«128927_j21234318311826_2_alg».proof.Proof.KernelRow

noncomputable section

open scoped BigOperators

namespace Cert.KernelIdeal.Row

open Cert.KernelIdeal Cert.KernelIdeal.Gen Idealize.ShloMosaic Idealize.ShloMosaic.ValueIdx

/-- The scaled scores: the product with the transposed key table times the scale word, at (q, k). -/
theorem scaled_apply {φ₁ φ₂ : FTy} (Q : FVec Ideal S160x10240 φ₁) (Kt : FVec Ideal S256x10240 φ₂) (q : Fin 160) (k : Fin 256) :
    mulf (matmul dot_S160x10240_S256x10240_S160x256_1_1_0_0_n_n none Q Kt (constant S160x256 .f32 0x00000000#32))
        (broadcast S160x256 (Scalar.ofBits (F := Ideal) .f32 0x3C21E89B#32)) (ix2 q k)
      = Cert.Attn.scores scaleWord (fun d : Fin 10240 => Q (ix2 q d)) (fun (k' : Fin 256) (d : Fin 10240) => Kt (ix2 k' d)) k :=
  (mulf_apply _ _ _).trans (congrArg (· * scaleWord) (scores_apply Q Kt q k))

/-- From a matrix whose row q is `s`: maximum, exponential of the distance below it, sum, quotient — the weights of row q. -/
theorem weights_apply (S : FVec Ideal S160x256 .f32) (q : Fin 160) (s : Fin 256 → EReal) (hS : ∀ k, S (ix2 q k) = s k)
    (h : S160x256.Reduces [1] S160) (hφ : FKind.Formats .f32)
    (hmax : (0xFF800000#32 : BitVec 32) = FKind.maximumf.neutral .f32 hφ) (hadd : (0x00000000#32 : BitVec 32) = FKind.add.neutral .f32 hφ)
    (h1 : S160.ShapeCasts S160x1) (h2 : S160x1.Broadcasts S160x256) (hb : FTy.bits .bf16 < FTy.bits .f32) (k : Fin 256) :
    truncf .bf16 (divf (exp (subf S (broadcastTo S160x256 (shapeCast S160x1 (multiReduction .maximumf [1] S160 S 0xFF800000#32 h hφ hmax) h1) h2)))
        (broadcastTo S160x256 (shapeCast S160x1 (multiReduction .add [1] S160
          (exp (subf S (broadcastTo S160x256 (shapeCast S160x1 (multiReduction .maximumf [1] S160 S 0xFF800000#32 h hφ hmax) h1) h2)))
          0x00000000#32 h hφ hadd) h1) h2)) hb (ix2 q k)
      = Cert.Attn.weight floorWord s k := by
  have hs : (fun k' : Fin 256 => S (ix2 q k')) = s := funext hS
  have hE : ∀ k' : Fin 256,
      exp (subf S (broadcastTo S160x256 (shapeCast S160x1 (multiReduction .maximumf [1] S160 S 0xFF800000#32 h hφ hmax) h1) h2)) (ix2 q k')
        = Cert.Attn.mass floorWord s k' := fun k' => by
    show Ideal.exp (S (ix2 q k') - broadcastTo S160x256 (shapeCast S160x1 (multiReduction .maximumf [1] S160 S 0xFF800000#32 h hφ hmax) h1) h2 (ix2 q k')) = _
    rw [rowmax_apply S h hφ hmax h1 h2 q k', hs, hS k']
    rfl
  show Ideal.div _ _ = _
  rw [hE k, rowsum_apply _ h hφ hadd h1 h2 q k]
  unfold Cert.Attn.weight
  exact congrArg (Ideal.div (Cert.Attn.mass floorWord s k)) (Finset.sum_congr rfl fun k' _ => hE k')

/-- The block the body stores, at row 20·p + r and column o: the fused attention output of query row p. -/
theorem pay_apply (x0 : FVec Ideal S1x256x10240 .bf16) (x1 : FVec Ideal S1x8x10240 .f32) (p : Fin 8) (r : Fin 20) (o : Fin 10240) :
    k0_pay1 (F := Ideal) x0 x1 (ix3 (0 : Fin 1) (qrow p r) o)
      = Cert.Attn.fused floorWord scaleWord (fun d : Fin 10240 => x1 (ix3 (0 : Fin 1) p d))
          (fun (k : Fin 256) (d : Fin 10240) => x0 (ix3 (0 : Fin 1) k d)) o := by
  have hK : ∀ (k : Fin 256) (d : Fin 10240), shapeCast S256x10240 x0 shapeCasts_S1x256x10240_S256x10240 (ix2 k d) = x0 (ix3 (0 : Fin 1) k d) :=
    fun k d => shapeCast_1ab_ab_apply x0 _ k d
  have hV : ∀ (p' : Fin 8) (d : Fin 10240), shapeCast S8x10240 x1 shapeCasts_S1x8x10240_S8x10240 (ix2 p' d) = x1 (ix3 (0 : Fin 1) p' d) :=
    fun p' d => shapeCast_1ab_ab_apply x1 _ p' d
  unfold k0_pay1
  dsimp only
  refine (shapeCast_ab_1ab_apply _ _ 0 (qrow p r) o).trans ?_
  refine (addf_apply _ _ _).trans ?_
  unfold Cert.Attn.fused
  refine congrArg₂ (· + ·) ?_ ((repeat_apply _ _ _ _ _ p r o).trans (hV p o))
  refine (mix_apply _ _ (qrow p r) o).trans (Finset.sum_congr rfl fun k _ => congrArg₂ (· * ·) ?_ (hK k o))
  refine weights_apply _ (qrow p r) _ (fun k' => ?_) _ _ _ _ _ _ _ k
  refine (scaled_apply _ _ (qrow p r) k').trans ?_
  unfold Cert.Attn.scores
  refine congrArg (· * scaleWord) (Finset.sum_congr rfl fun d _ => congrArg₂ (· * ·) ?_ (hK k' d))
  show shapeCast S160x10240 _ _ (ix2 (qrow p r) d) = x1 (ix3 (0 : Fin 1) p d)
  exact (repeat_apply (truncf .bf16 (shapeCast S8x10240 x1 shapeCasts_S1x8x10240_S8x10240) bitsLt_bf16_f32) _ _ _ _ p r d).trans (hV p d)

end Cert.KernelIdeal.Row

end
-- ==== Proof.KernelArray.lean ====
/-
  From the stored blocks to the array the region leaves.

  The grid has 4 × 8 points; point (b, g) reads the 256 text rows of batch b (already rounded to the short format by the host,
  which at the extended reals changes nothing), the eight video rows 8·g … 8·g+7 of batch b, and writes the 160 rows
  320 + 160·g … 320 + 160·g + 159 of batch b of the output array. So row R ≥ 320 of batch b ends holding the fused attention output
  of video row (R − 320) / 20 of that batch: one function `G` of the two arrays the region finds, of which every stored
  block is a block. Rows below 320 are written by no point; the host overwrites them afterwards.
-/
import proofs.«128927_j21234318311826_2_alg».proof.Proof.Gen.KernelIdeal.Frame
import proofs.«128927_j21234318311826_2_alg».proof.Proof.KernelPay
import Idealize.ShloMosaic.Lib.Pipeline.Value

noncomputable section

open scoped BigOperators

namespace Cert.KernelIdeal.Arr

open Cert.KernelIdeal Cert.KernelIdeal.Gen Cert.KernelIdeal.Row Idealize.ShloMosaic Idealize.ShloMosaic.TcCoe Idealize.SL.Sem
open Idealize.ShloMosaic.ValueIdx
open Idealize.ShloMosaic.Pipeline (Dat)

/-- The video row that feeds row R of the output, for R from 320 on: twenty output rows per video row. -/
def srcRow (R : Fin 1600) : Fin 64 := ⟨(R.val - 320) / 20, by have := R.isLt; omega⟩

/-- The fused output at batch b, output row R, column o, from a text array T and a video array X. -/
def fusedAt (T : S4x256x10240.Idx → EReal) (X : S4x64x10240.Idx → EReal) (b : Fin 4) (R : Fin 1600) (o : Fin 10240) : EReal :=
  Cert.Attn.fused floorWord scaleWord (fun d : Fin 10240 => X (ix3 b (srcRow R) d)) (fun (k : Fin 256) (d : Fin 10240) => T (ix3 b k d)) o

/-- The whole output array as one function of the two arrays (meaningful from row 320 on). -/
def G (T : S4x256x10240.Idx → EReal) (X : S4x64x10240.Idx → EReal) : S4x1600x10240.Idx → EReal :=
  fun i => fusedAt T X (i 0) (i 1) (i 2)

/-- One stored block is a block of `G`: if the text block is batch b of T, the video block rows 8·g … of batch b of X, and the
    array index i sits at block (b, g + 2, 0) offset y, the payload at y is `G` at i. -/
theorem block_eq (T : S4x256x10240.Idx → EReal) (X : S4x64x10240.Idx → EReal)
    (x0 : FVec Ideal S1x256x10240 .bf16) (x1 : FVec Ideal S1x8x10240 .f32) (b : Fin 4) (g : Fin 8)
    (h0 : ∀ (k : Fin 256) (d : Fin 10240), x0 (ix3 (0 : Fin 1) k d) = T (ix3 b k d))
    (h1 : ∀ (p : Fin 8) (d : Fin 10240), x1 (ix3 (0 : Fin 1) p d) = X (ix3 b (⟨8 * g.val + p.val, by have := g.isLt; have := p.isLt; omega⟩ : Fin 64) d))
    (y : S1x160x10240.Idx) (i : S4x1600x10240.Idx) (I1 I2 : ℕ) (hI1 : I1 = g.val + 2) (hI2 : I2 = 0)
    (hi0 : (i 0).val = b.val * 1 + 1 * (y 0).val) (hi1 : (i 1).val = I1 * 160 + 1 * (y 1).val)
    (hi2 : (i 2).val = I2 * 10240 + 1 * (y 2).val) :
    k0_pay1 (F := Ideal) x0 x1 y = G T X i := by
  have hy0 : (y 0).val < 1 := (y 0).isLt
  have hy1 : (y 1).val < 160 := (y 1).isLt
  have hy2 : (y 2).val < 10240 := (y 2).isLt
  have hgl : g.val < 8 := g.isLt
  let p : Fin 8 := ⟨(y 1).val / 20, by omega⟩
  let r : Fin 20 := ⟨(y 1).val % 20, by omega⟩
  let o : Fin 10240 := ⟨(y 2).val, hy2⟩
  have ey : y = ix3 (0 : Fin 1) (qrow p r) o := funext fun a => Fin.ext (by
    match a with
    | ⟨0, _⟩ => show (y 0).val = 0; omega
    | ⟨1, _⟩ => show (y 1).val = (y 1).val / 20 * 20 + (y 1).val % 20; omega
    | ⟨2, _⟩ => rfl)
  rw [ey, pay_apply]
  unfold G fusedAt
  have eb : (i 0 : Fin 4) = b := Fin.ext (by rw [hi0]; omega)
  have eo : (i 2 : Fin 10240) = o := Fin.ext (by rw [hi2, hI2]; show 0 * 10240 + 1 * (y 2).val = (y 2).val; omega)
  have es : srcRow (i 1) = (⟨8 * g.val + p.val, by omega⟩ : Fin 64) := Fin.ext (by
    show ((i 1).val - 320) / 20 = 8 * g.val + (y 1).val / 20
    rw [hi1, hI1]; omega)
  rw [eb, eo, es]
  have eq : (fun d : Fin 10240 => x1 (ix3 (0 : Fin 1) p d)) = fun d : Fin 10240 => X (ix3 b (⟨8 * g.val + p.val, by omega⟩ : Fin 64) d) :=
    funext fun d => h1 p d
  have eK : (fun (k : Fin 256) (d : Fin 10240) => x0 (ix3 (0 : Fin 1) k d)) = fun (k : Fin 256) (d : Fin 10240) => T (ix3 b k d) :=
    funext fun k => funext fun d => h0 k d
  rw [eq, eK]

variable (m : (ℓ : Loc nD τ sig) → Buf (Elt Ideal) ℓ)

theorem hz : (![0, 0, 0] : Fin 3 → Nat) = fun _ => 0 := funext fun a => by fin_cases a <;> rfl

/-- The printed index maps over the 32 grid points: the text window follows the output's batch, the video window its
    batch and, two blocks behind, its row block; the output's blocks are (b, 2 … 9, 0). -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) + 2 = win0_2.index t (1 : Fin 3)
    ∧ win0_1.index t (2 : Fin 3) = 0
    ∧ win0_2.index t (0 : Fin 3) ≤ 3 ∧ 2 ≤ win0_2.index t (1 : Fin 3) ∧ win0_2.index t (1 : Fin 3) ≤ 9 ∧ win0_2.index t (2 : Fin 3) = 0 :=
  (by decide +kernel : ∀ t : Fin grid0.N, _)

/-- Every block (b, g + 2, 0) of the output is some point's. -/
theorem idx_onto : ∀ (q0 : Fin 4) (q1 : Fin 8), ∃ t : Fin cfg0.N, win0_2.index t = ![q0.val, q1.val + 2, 0] :=
  (by decide +kernel : ∀ (q0 : Fin 4) (q1 : Fin 8), ∃ t : Fin grid0.N, win0_2.index t = ![q0.val, q1.val + 2, 0])

/-- The text window's block at a point is batch b of the array the region finds. -/
theorem read0 (c : Dev nD) (t : Fin cfg0.N) (b : Fin 4) (hb : b.val = win0_2.index t (0 : Fin 3)) (k : Fin 256) (d : Fin 10240) :
    iblk m c 0 t (ix3 (0 : Fin 1) k d) = V m c main_v0 (ix3 b k d) := by
  obtain ⟨e0, e1, e2, -⟩ := idx_facts t
  show V m c main_v0 (((cfg0.win 0).blk t).view.emb (ix3 (0 : Fin 1) k d)) = V m c main_v0 (ix3 b k d)
  refine congrArg (V m c main_v0) (funext fun a => Fin.ext ?_)
  match a with
  | ⟨0, _⟩ => show win0_0.index t (0 : Fin 3) * 1 + 1 * 0 = b.val; omega
  | ⟨1, _⟩ => show win0_0.index t (1 : Fin 3) * 256 + 1 * k.val = k.val; omega
  | ⟨2, _⟩ => show win0_0.index t (2 : Fin 3) * 10240 + 1 * d.val = d.val; omega

/-- The video window's block at a point is rows 8·g … 8·g+7 of batch b of the array the region finds. -/
theorem read1 (c : Dev nD) (t : Fin cfg0.N) (b : Fin 4) (g : Fin 8) (hb : b.val = win0_2.index t (0 : Fin 3))
    (hg : g.val + 2 = win0_2.index t (1 : Fin 3)) (p : Fin 8) (d : Fin 10240) :
    iblk m c 1 t (ix3 (0 : Fin 1) p d)
      = V m c main_arg1 (ix3 b (⟨8 * g.val + p.val, by have := g.isLt; have := p.isLt; omega⟩ : Fin 64) d) := by
  obtain ⟨-, -, -, e3, e4, e5, -⟩ := idx_facts t
  show V m c main_arg1 (((cfg0.win 1).blk t).view.emb (ix3 (0 : Fin 1) p d)) = V m c main_arg1 _
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 8 + 1 * p.val = 8 * g.val + p.val; omega
  | ⟨2, _⟩ => show win0_1.index t (2 : Fin 3) * 10240 + 1 * d.val = d.val; omega

/-- What point t writes back is block t of `G` of the arrays the region finds. -/
theorem flushed_eq (c : Dev nD) (t : Fin cfg0.N) :
    (dats m 0 c).flushed 2 t = ((cfg0.win 2).blk t).view.read (Elt Ideal) (G (V m c main_v0) (V m c main_arg1)) := by
  show (cfg0.win 2).cut (grid0.coords t) ((dats m 0 c).after 2 t) = _
  rw [after0_2]
  unfold out0_2
  rw [View.canon_unit_zero hz]
  simp only [View.ld_unit_zero (S := S1x256x10240) hz, View.ld_unit_zero (S := S1x8x10240) hz]
  obtain ⟨e0, e1, e2, e3, e4, e5, e6, e7, e8, e9⟩ := idx_facts t
  funext j
  show k0_pay1 (F := Ideal) (iblk m c 0 t) (iblk m c 1 t) j = G (V m c main_v0) (V m c main_arg1) (((cfg0.win 2).blk t).view.emb j)
  exact block_eq (V m c main_v0) (V m c main_arg1) (iblk m c 0 t) (iblk m c 1 t)
    (⟨win0_2.index t (0 : Fin 3), by omega⟩ : Fin 4) (⟨win0_2.index t (1 : Fin 3) - 2, by omega⟩ : Fin 8)
    (read0 m c t _ rfl) (read1 m c t _ _ rfl (by show win0_2.index t (1 : Fin 3) - 2 + 2 = win0_2.index t (1 : Fin 3); omega))
    j (((cfg0.win 2).blk t).view.emb j) (win0_2.index t (1 : Fin 3)) (win0_2.index t (2 : Fin 3))
    (by show win0_2.index t (1 : Fin 3) = win0_2.index t (1 : Fin 3) - 2 + 2; omega) e9 rfl rfl rfl

/-- An index of the array is in point t's block iff each coordinate is in the block's range on its axis. -/
theorem mem_blk (t : Fin cfg0.N) (i : S4x1600x10240.Idx) :
    i ∈ ((cfg0.win 2).blk t).view.set ↔ ∀ a : Fin 3, win0_2.index t a * S1x160x10240.size a ≤ (i a).val ∧ (i a).val < win0_2.index t a * S1x160x10240.size a + S1x160x10240.size a := by
  show i ∈ ((View.whole main_v1).slice (win0_2.rect t)).set ↔ _
  rw [View.set_slice_whole, Rect.mem_set_unit]
  exact Iff.rfl

/-- From row 320 on, the array the region leaves is `G` of the arrays it found. -/
theorem fused_rows (c : Dev nD) (i : S4x1600x10240.Idx) (hi : 320 ≤ (i 1).val) :
    (dats m 0 c).arrAt 2 cfg0.N i = G (V m c main_v0) (V m c main_arg1) i := by
  have hi0 : (i 0).val < 4 := (i 0).isLt
  have hi1 : (i 1).val < 1600 := (i 1).isLt
  have hi2 : (i 2).val < 10240 := (i 2).isLt
  obtain ⟨t, ht⟩ := idx_onto ⟨(i 0).val, hi0⟩ ⟨((i 1).val - 320) / 160, by omega⟩
  have q0 : win0_2.index t (0 : Fin 3) = (i 0).val := congrFun ht 0
  have q1 : win0_2.index t (1 : Fin 3) = ((i 1).val - 320) / 160 + 2 := congrFun ht 1
  have q2 : win0_2.index t (2 : Fin 3) = 0 := congrFun ht 2
  refine (dats m 0 c).arrAt_apply_of_mem 2 _ (fun t _ => flushed_eq m c t) cfg0.N t i t.isLt (flush0_2 t) ?_
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 160 ≤ (i 1).val ∧ (i 1).val < win0_2.index t (1 : Fin 3) * 160 + 160; omega
  | ⟨2, _⟩ => show win0_2.index t (2 : Fin 3) * 10240 ≤ (i 2).val ∧ (i 2).val < win0_2.index t (2 : Fin 3) * 10240 + 10240; omega

end Cert.KernelIdeal.Arr

end
-- ==== Proof.KernelTail.lean ====
/-
  The host lines after the region: two row ranges of the output overwritten.

  After the region the host writes the 256 text rows over rows 0 … 255 of every batch of the output array, then the 64 video
  rows over rows 256 … 319; both are updates of a slice at constant offsets (0, 0, 0) and (0, 256, 0), which the clamping of the
  start indices leaves alone. Read at batch b, row R and column o the result is text row R below 256, video row R − 256 from
  256 to 319, and from 320 on whatever the region left there.
-/
import proofs.«128927_j21234318311826_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Tail

open Cert.KernelIdeal Cert.KernelIdeal.Gen Idealize.ShloMosaic Idealize.ShloMosaic.TcCoe Idealize.SL.Sem Idealize.ShloMosaic.StableHlo
open Idealize.ShloMosaic.ValueIdx

/-- A range of rows of a rank-3 array overwritten, read at (b, R, o): the update's row R − s inside the range, the array outside. -/
theorem updateRows_apply {α : Type} {n0 n1 n2 k : ℕ} (x : (⟨3, ![n0, n1, n2]⟩ : Shape).Idx → α) (u : (⟨3, ![n0, k, n2]⟩ : Shape).Idx → α)
    (s : ℕ) (h : (⟨3, ![n0, n1, n2]⟩ : Shape).Slices ![0, s, 0] ⟨3, ![n0, k, n2]⟩) (b : Fin n0) (R : Fin n1) (o : Fin n2) :
    updateSlice x u ![0, s, 0] h (ix3 b R o)
      = if hR : s ≤ R.val ∧ R.val < s + k then u (ix3 b (⟨R.val - s, by omega⟩ : Fin k) o) else x (ix3 b R o) := by
  unfold updateSlice
  by_cases hR : s ≤ R.val ∧ R.val < s + k
  · have hin : ∀ a : Fin (⟨3, ![n0, n1, n2]⟩ : Shape).rank, (![0, s, 0] : Fin 3 → ℕ) a ≤ (ix3 b R o a).val
        ∧ (ix3 b R o a).val < (![0, s, 0] : Fin 3 → ℕ) a + (⟨3, ![n0, k, n2]⟩ : Shape).size (a.cast h.1.symm) := fun a => by
      match a with
      | ⟨0, _⟩ => exact ⟨Nat.zero_le _, by show b.val < 0 + n0; have := b.isLt; omega⟩
      | ⟨1, _⟩ => exact hR
      | ⟨2, _⟩ => exact ⟨Nat.zero_le _, by show o.val < 0 + n2; have := o.isLt; omega⟩
    refine (dif_pos hin).trans ?_
    rw [dif_pos hR]
    exact congrArg u (funext fun a => Fin.ext (by match a with | ⟨0, _⟩ => rfl | ⟨1, _⟩ => rfl | ⟨2, _⟩ => rfl))
  · refine (dif_neg fun hin => hR (hin 1)).trans ?_
    rw [dif_neg hR]

theorem slices_text : S4x1600x10240.Slices ![0, 0, 0] S4x256x10240 := by decide
theorem slices_video : S4x1600x10240.Slices ![0, 256, 0] S4x64x10240 := by decide

set_option maxHeartbeats 400000 in
/-- The eight host lines after the region, from any buffer contents W: the output array with the text rows written at row 0
    and then the video rows at row 256. -/
theorem tail_after (W : Valuation τ sig (Elt Ideal)) :
    StableHlo.after (hostOps1 (F := Ideal)) W (Proc.devRef .tc main_v3)
      = updateSlice (updateSlice (W (Proc.devRef .tc main_v1) : S4x1600x10240.Idx → EReal) (W (Proc.devRef .tc main_arg0) : S4x256x10240.Idx → EReal) ![0, 0, 0] slices_text)
          (W (Proc.devRef .tc main_arg1) : S4x64x10240.Idx → EReal) ![0, 256, 0] slices_video := by
  after_results
  refine (Host.dynamicUpdateSlice_eq_updateSlice (s := S4x1600x10240) (u := S4x64x10240) _ _ _ _ (![0, 256, 0] : Fin 3 → ℕ) (fun a => ?_) slices_video).trans ?_
  · fin_cases a <;>
      (simp only [Matrix.cons_val_zero', Matrix.cons_val_succ', Fin.zero_eta, Fin.mk_one, Matrix.cons_val_zero, Matrix.cons_val_one, Matrix.head_cons]) <;>
      (try after_results_simp) <;> rfl
  · refine congrArg (fun x : S4x1600x10240.Idx → EReal => updateSlice x (W (Proc.devRef .tc main_arg1) : S4x64x10240.Idx → EReal) ![0, 256, 0] slices_video) ?_
    refine Host.dynamicUpdateSlice_eq_updateSlice (s := S4x1600x10240) (u := S4x256x10240) _ _ _ _ (![0, 0, 0] : Fin 3 → ℕ) (fun a => ?_) slices_text
    fin_cases a <;>
      (simp only [Matrix.cons_val_zero', Matrix.cons_val_succ', Fin.zero_eta, Fin.mk_one, Matrix.cons_val_zero, Matrix.cons_val_one, Matrix.head_cons]) <;>
      (try after_results_simp) <;> rfl

/-- The two updates read at (b, R, o). -/
theorem tail_apply (A : S4x1600x10240.Idx → EReal) (T : S4x256x10240.Idx → EReal) (X : S4x64x10240.Idx → EReal)
    (b : Fin 4) (R : Fin 1600) (o : Fin 10240) :
    updateSlice (updateSlice A T ![0, 0, 0] slices_text) X ![0, 256, 0] slices_video (ix3 b R o)
      = if hv : 256 ≤ R.val ∧ R.val < 256 + 64 then X (ix3 b (⟨R.val - 256, by omega⟩ : Fin 64) o)
        else if ht : 0 ≤ R.val ∧ R.val < 0 + 256 then T (ix3 b (⟨R.val - 0, by omega⟩ : Fin 256) o) else A (ix3 b R o) := by
  rw [updateRows_apply (updateSlice A T ![0, 0, 0] slices_text) X 256 slices_video b R o, updateRows_apply A T 0 slices_text b R o]

end Cert.KernelIdeal.Tail

end
-- ==== Proof.RefRow.lean ====
/-
  The reference's fused rows, entry by entry.

  The reference repeats each of the 64 video rows of a batch twenty times (row 20·p + r of the 1280 is row p), scores every
  repeated row against the 256 text rows of the batch, takes the softmax of each row of scores — greatest score (from −∞, and
  once more against −∞), exponentials, their sum, quotient — and the weighted sum of the text rows, and adds the repeated row.
  Read at batch b, row 20·p + r and column o this is `Attn.fused` of video row (b, p) and the text rows of batch b, at o, with the
  two summands of the last addition in the other order.
-/
import proofs.«128927_j21234318311826_2_alg».proof.Proof.RefReadP
import proofs.«128927_j21234318311826_2_alg».proof.Proof.LibPairLayout
import proofs.«128927_j21234318311826_2_alg».proof.Proof.Attn
import Idealize.ShloMosaic.PureOps.Ideal.Laws

noncomputable section

open scoped BigOperators

namespace Cert.ReferenceIdeal.Row

open Cert.ReferenceIdeal Cert.ReferenceIdeal.Gen Cert.ReferenceIdeal.ReadP Idealize.ShloMosaic Idealize.ShloMosaic.ValueIdx

/-- Row 20·p + r of the 1280 repeated rows of a batch. -/
abbrev row (p : Fin 64) (r : Fin 20) : Fin 1280 := Cert.PairLayout.flatRow (a := 64) (b := 20) (n := 1280) rfl p r

abbrev floorWord : EReal := Ideal.ofBits .f32 0xFF800000#32
abbrev scaleWord : EReal := Ideal.ofBits .f32 0x3C21E89B#32

variable (x0 : (⟨S4x256x10240, .f32⟩ : BufTy).Contents (Elt Ideal)) (x1 : (⟨S4x64x10240, .f32⟩ : BufTy).Contents (Elt Ideal))

/-- Video row (b, p) and the text rows of batch b, as plain families. -/
abbrev qOf (b : Fin 4) (p : Fin 64) : Fin 10240 → EReal := fun d => x1 (ix3 b p d)
abbrev kOf (b : Fin 4) : Fin 256 → Fin 10240 → EReal := fun k d => x0 (ix3 b k d)

/-- The scores of repeated row 20·p + r of batch b. -/
abbrev sOf (b : Fin 4) (p : Fin 64) : Fin 256 → EReal := Cert.Attn.scores scaleWord (qOf x1 b p) (kOf x0 b)

/-- The repeated rows: row 20·p + r is video row p. -/
theorem v1_apply (b : Fin 4) (p : Fin 64) (r : Fin 20) (d : Fin 10240) :
    val_main_v1 (F := Ideal) x1 (ix3 b (row p r) d) = x1 (ix3 b p d) := by
  rw [val_main_v1_apply, val_main_v0_apply]
  refine congrArg x1 (funext fun a => Fin.ext ?_)
  have hb := b.isLt
  have hp := p.isLt
  have hr := r.isLt
  have hd := d.isLt
  match a with
  | ⟨0, _⟩ =>
    show ((b.val * 1280 + (p.val * 20 + r.val)) * 10240 + d.val) / 13107200 = b.val
    omega
  | ⟨1, _⟩ =>
    show ((b.val * 1280 + (p.val * 20 + r.val)) * 10240 + d.val) / 204800 % 64 = p.val
    omega
  | ⟨2, _⟩ =>
    show ((b.val * 1280 + (p.val * 20 + r.val)) * 10240 + d.val) % 10240 = d.val
    omega

/-- The scaled scores. -/
theorem v4_apply (b : Fin 4) (p : Fin 64) (r : Fin 20) (k : Fin 256) :
    val_main_v4 (F := Ideal) x0 x1 (ix3 b (row p r) k) = sOf x0 x1 b p k := by
  rw [val_main_v4_apply, val_main_v2_apply, val_main_v3_apply, val_main_cst_apply]
  show (∑ d : Fin 10240, _) * scaleWord = _
  unfold sOf Cert.Attn.scores
  refine congrArg (· * scaleWord) (Finset.sum_congr rfl fun d _ => ?_)
  have el : lidx_main_v2 (ix3 b (row p r) k) d = ix3 b (row p r) d :=
    funext fun a => Fin.ext (by match a with | ⟨0, _⟩ => rfl | ⟨1, _⟩ => rfl | ⟨2, _⟩ => rfl)
  have er : ridx_main_v2 (ix3 b (row p r) k) d = ix3 b k d :=
    funext fun a => Fin.ext (by match a with | ⟨0, _⟩ => rfl | ⟨1, _⟩ => rfl | ⟨2, _⟩ => rfl)
  rw [el, er, v1_apply]

/-- The index with key k inserted after (b, row) is (b, row, k). -/
theorem lift_row (h : S4x1280x256.Reduces [2] S4x1280) (b : Fin 4) (Q : Fin 1280) (k : Fin 256) : h.lift (ix2 b Q) k = ix3 b Q k :=
  funext fun a => Fin.ext (by match a with | ⟨0, _⟩ => rfl | ⟨1, _⟩ => rfl | ⟨2, _⟩ => rfl)

/-- The greatest score of the row: the host's maximum from −∞, then once more against −∞. -/
theorem v7_apply (b : Fin 4) (p : Fin 64) (r : Fin 20) :
    val_main_v7 (F := Ideal) x0 x1 (ix2 b (row p r)) = Cert.Attn.top floorWord (sOf x0 x1 b p) := by
  have h : S4x1280x256.Reduces [2] S4x1280 := by decide
  rw [val_main_v7_apply, val_main_v6_apply, val_main_cst_1_apply]
  have h5 : val_main_v5 (F := Ideal) x0 x1 (ix2 b (row p r)) = Cert.Attn.top floorWord (sOf x0 x1 b p) := by
    unfold val_main_v5
    refine (Host.reduce_eq_fold_single (α := EReal) (FloatOps.maximumf (F := Ideal) (φ := .f32))
      (val_main_v4 (F := Ideal) x0 x1 : S4x1280x256.Idx → EReal) (val_main_cst_0 (F := Ideal) : S_.Idx → EReal)
      reducesTo_S4x1280x256_S4x1280_d2 h h_S_ (ix2 b (row p r))).trans ?_
    unfold Cert.Attn.top
    exact congrArg (fun f : Fin 256 → EReal => (Finset.univ : Finset (Fin 256)).fold max (Ideal.ofBits .f32 0xFF800000#32) f)
      (funext fun k => (congrArg (val_main_v4 (F := Ideal) x0 x1) (lift_row h b (row p r) k)).trans (v4_apply x0 x1 b p r k))
  rw [h5]
  exact Cert.Attn.max_floor_top floorWord _

/-- The masses. -/
theorem v11_apply (b : Fin 4) (p : Fin 64) (r : Fin 20) (k : Fin 256) :
    val_main_v11 (F := Ideal) x0 x1 (ix3 b (row p r) k) = Cert.Attn.mass floorWord (sOf x0 x1 b p) k := by
  rw [val_main_v11_apply, val_main_v10_apply, val_main_v9_apply, val_main_v8_apply, v4_apply]
  have e : idx_main_v8 (idx_main_v9 (ix3 b (row p r) k)) = ix2 b (row p r) :=
    funext fun a => Fin.ext (by match a with | ⟨0, _⟩ => rfl | ⟨1, _⟩ => rfl)
  rw [e, v7_apply]
  rfl

/-- The weights. -/
theorem v15_apply (b : Fin 4) (p : Fin 64) (r : Fin 20) (k : Fin 256) :
    val_main_v15 (F := Ideal) x0 x1 (ix3 b (row p r) k) = Cert.Attn.weight floorWord (sOf x0 x1 b p) k := by
  rw [val_main_v15_apply, val_main_v14_apply, val_main_v13_apply, val_main_v12_apply, val_main_cst_2_apply, v11_apply]
  have e : ∀ k' : Fin 256, idx_main_v12 (idx_main_v13 (idx_main_v14 (ix3 b (row p r) k))) k' = ix3 b (row p r) k' := fun k' =>
    funext fun a => Fin.ext (by match a with | ⟨0, _⟩ => rfl | ⟨1, _⟩ => rfl | ⟨2, _⟩ => rfl)
  show Ideal.div _ (Ideal.ofBits .f32 0x00000000#32 + _) = _
  rw [Ideal.ofBits_zero_f32, zero_add]
  unfold Cert.Attn.weight
  exact congrArg (Ideal.div _) (Finset.sum_congr rfl fun k' _ => by rw [e k', v11_apply])

/-- The fused row: the repeated row plus the weighted sum of the text rows. -/
theorem v17_apply (b : Fin 4) (p : Fin 64) (r : Fin 20) (o : Fin 10240) :
    val_main_v17 (F := Ideal) x0 x1 (ix3 b (row p r) o)
      = Cert.Attn.fused floorWord scaleWord (qOf x1 b p) (kOf x0 b) o := by
  rw [val_main_v17_apply, val_main_v16_apply, v1_apply]
  show x1 (ix3 b p o) + _ = _
  unfold Cert.Attn.fused
  rw [add_comm]
  refine congrArg (· + x1 (ix3 b p o)) (Finset.sum_congr rfl fun k _ => ?_)
  have el : lidx_main_v16 (ix3 b (row p r) o) k = ix3 b (row p r) k :=
    funext fun a => Fin.ext (by match a with | ⟨0, _⟩ => rfl | ⟨1, _⟩ => rfl | ⟨2, _⟩ => rfl)
  have er : ridx_main_v16 (ix3 b (row p r) o) k = ix3 b k o :=
    funext fun a => Fin.ext (by match a with | ⟨0, _⟩ => rfl | ⟨1, _⟩ => rfl | ⟨2, _⟩ => rfl)
  rw [el, er, v15_apply]

end Cert.ReferenceIdeal.Row

end
-- ==== Proof.RefOut.lean ====
/-
  The reference's result array, row by row.

  The result stacks, along the row axis of each batch, the 256 text rows, the 64 video rows and the 1280 fused rows: row R of
  batch b is text row R for R < 256, video row R − 256 for 256 ≤ R < 320, and from 320 on the fused output of video row
  (R − 320) / 20 — `Attn.fused` of that video row and the batch's text rows.
-/
import proofs.«128927_j21234318311826_2_alg».proof.Proof.RefRow
import Idealize.ShloMosaic.Lib.Pipeline.Value

noncomputable section

open scoped BigOperators

namespace Cert.ReferenceIdeal.Row

open Cert.ReferenceIdeal Cert.ReferenceIdeal.Gen Cert.ReferenceIdeal.ReadP Idealize.ShloMosaic Idealize.ShloMosaic.ValueIdx

variable (x0 : (⟨S4x256x10240, .f32⟩ : BufTy).Contents (Elt Ideal)) (x1 : (⟨S4x64x10240, .f32⟩ : BufTy).Contents (Elt Ideal))

/-- Rows below 256 are the text rows. -/
theorem out_text (b : Fin 4) (R : Fin 1600) (o : Fin 10240) (hR : R.val < 256) :
    val_main_v18 (F := Ideal) x0 x1 (ix3 b R o) = x0 (ix3 b (⟨R.val, hR⟩ : Fin 256) o) := by
  unfold val_main_v18
  refine concatenate_apply_piece (1 : Fin 3) ([⟨S4x256x10240, x0⟩, ⟨S4x64x10240, x1⟩, ⟨S4x1280x10240, val_main_v17 (F := Ideal) x0 x1⟩] : List ((s : Shape) × (s.Idx → EReal))) _ (ix3 b R o) 0 (by show (0 : ℕ) < 3; omega) S4x256x10240 x0 rfl rfl 0 rfl
    (ix3 b (⟨R.val, hR⟩ : Fin 256) o) (fun a ha => ?_) ?_
  · match a with
    | ⟨0, _⟩ => rfl
    | ⟨1, _⟩ => exact absurd rfl ha
    | ⟨2, _⟩ => rfl
  · show 0 + R.val = R.val
    omega

/-- Rows 256 to 319 are the video rows. -/
theorem out_video (b : Fin 4) (R : Fin 1600) (o : Fin 10240) (h1 : 256 ≤ R.val) (h2 : R.val < 320) :
    val_main_v18 (F := Ideal) x0 x1 (ix3 b R o) = x1 (ix3 b (⟨R.val - 256, by omega⟩ : Fin 64) o) := by
  unfold val_main_v18
  refine concatenate_apply_piece (1 : Fin 3) ([⟨S4x256x10240, x0⟩, ⟨S4x64x10240, x1⟩, ⟨S4x1280x10240, val_main_v17 (F := Ideal) x0 x1⟩] : List ((s : Shape) × (s.Idx → EReal))) _ (ix3 b R o) 1 (by show (1 : ℕ) < 3; omega) S4x64x10240 x1 rfl rfl 256 rfl
    (ix3 b (⟨R.val - 256, by omega⟩ : Fin 64) o) (fun a ha => ?_) ?_
  · match a with
    | ⟨0, _⟩ => rfl
    | ⟨1, _⟩ => exact absurd rfl ha
    | ⟨2, _⟩ => rfl
  · show 256 + (R.val - 256) = R.val
    omega

/-- Rows from 320 on are the fused rows: the attention output of video row (R − 320) / 20, plus that row. -/
theorem out_fused (b : Fin 4) (R : Fin 1600) (o : Fin 10240) (h : 320 ≤ R.val) :
    val_main_v18 (F := Ideal) x0 x1 (ix3 b R o)
      = Cert.Attn.fused floorWord scaleWord (qOf x1 b (⟨(R.val - 320) / 20, by have := R.isLt; omega⟩ : Fin 64)) (kOf x0 b) o := by
  have hR := R.isLt
  have e : val_main_v18 (F := Ideal) x0 x1 (ix3 b R o) = val_main_v17 (F := Ideal) x0 x1 (ix3 b (⟨R.val - 320, by omega⟩ : Fin 1280) o) := by
    unfold val_main_v18
    refine concatenate_apply_piece (1 : Fin 3) ([⟨S4x256x10240, x0⟩, ⟨S4x64x10240, x1⟩, ⟨S4x1280x10240, val_main_v17 (F := Ideal) x0 x1⟩] : List ((s : Shape) × (s.Idx → EReal))) _ (ix3 b R o) 2 (by show (2 : ℕ) < 3; omega) S4x1280x10240 (val_main_v17 (F := Ideal) x0 x1) rfl rfl 320 rfl
      (ix3 b (⟨R.val - 320, by omega⟩ : Fin 1280) o) (fun a ha => ?_) ?_
    · match a with
      | ⟨0, _⟩ => rfl
      | ⟨1, _⟩ => exact absurd rfl ha
      | ⟨2, _⟩ => rfl
    · show 320 + (R.val - 320) = R.val
      omega
  have er : (⟨R.val - 320, by omega⟩ : Fin 1280)
      = row (⟨(R.val - 320) / 20, by omega⟩ : Fin 64) (⟨(R.val - 320) % 20, Nat.mod_lt _ (by decide)⟩ : Fin 20) :=
    Fin.ext (by show R.val - 320 = (R.val - 320) / 20 * 20 + (R.val - 320) % 20; omega)
  rw [e, er, v17_apply]

end Cert.ReferenceIdeal.Row

end
-- ==== Proof.Bridge.lean ====
/-
  The two programs leave one array.

  The kernel's program ends with the output array the region left, overwritten by the text rows at row 0 and the video rows at row 256.
  The region found the text rounded to the short format — the identity on the extended reals — and the video rows as launched, and
  left from row 320 on the fused attention rows (`Attn.fused`). The reference stacks text rows, video rows and its own fused rows, which are
  `Attn.fused` of the same rows. Row by row the two arrays agree: below 256, from 256 to 319, and from 320 on. No finiteness of the entries is used:
  the two sides apply the same operations to the same numbers, up to the order of one addition.
-/
import proofs.«128927_j21234318311826_2_alg».proof.Proof.KernelArray
import proofs.«128927_j21234318311826_2_alg».proof.Proof.KernelTail
import proofs.«128927_j21234318311826_2_alg».proof.Proof.RefOut

noncomputable section

namespace Cert.Proof.Bridge

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The text array as the region finds it: the argument with every entry's format changed. -/
theorem V_text (c : Dev nD) :
    @Eq (S4x256x10240.Idx → EReal) (V m c main_v0)
      (truncf (F := Ideal) (s := S4x256x10240) (φ := .f32) .bf16 (m ((c : Thread nD τ).loc main_arg0)) bitsLt_bf16_f32) := by
  show StableHlo.after hostOps0 (fun b => m (c, b)) (Proc.devRef .tc main_v0) = _
  after_results

/-- The buffers' contents when the region is left: its arrays as the write-backs leave them, every other buffer as the region found it. -/
def Wc (c : Dev nD) : Valuation τ sig (Elt Ideal) :=
  Pipeline.withArrays (cfgs 0).spec c (V0 m c) fun w => (dats m 0 c).arrAt w (cfgs 0).N

theorem W_out (c : Dev nD) : Wc m c (Proc.devRef .tc main_v1) = (dats m 0 c).arrAt 2 cfg0.N := by
  unfold Wc
  exact Pipeline.withArrays_arr spec0 launch0.win.arr_inj c _ _ 2

theorem W_video (c : Dev nD) : Wc m c (Proc.devRef .tc main_arg1) = m ((c : Thread nD τ).loc main_arg1) := by
  unfold Wc
  exact (Pipeline.withArrays_arr spec0 launch0.win.arr_inj c _ _ 1).trans
    (((dats m 0 c).arrAt_in 1 rfl _).trans ((A_eq m c 1).trans (V_main_arg1 m c)))

theorem W_text (c : Dev nD) : Wc m c (Proc.devRef .tc main_arg0) = m ((c : Thread nD τ).loc main_arg0) := by
  unfold Wc
  exact (Pipeline.withArrays_of_ne _ c (V0 m c) _ main_arg0 (by exact (by decide : ∀ w, Pipeline.arrRef spec0 w ≠ main_arg0))).trans
    (V_main_arg0 m c)

/-- What the kernel's program leaves in its result buffer is the reference's result term of the same two argument arrays. -/
theorem result_eq (c : Dev nD) :
    Pipeline.afterTail₀ cfgs (dats m) 0 (V0 m) [hostOps1] c main_v3
      = Cert.ReferenceIdeal.ReadP.val_main_v18 (F := Ideal) (m ((c : Thread nD τ).loc main_arg0)) (m ((c : Thread nD τ).loc main_arg1)) := by
  unfold Pipeline.afterTail₀
  refine (Cert.KernelIdeal.Tail.tail_after (Wc m c)).trans ?_
  rw [W_out, W_text, W_video]
  funext i
  obtain ⟨b, R, o, rfl⟩ : ∃ (b : Fin 4) (R : Fin 1600) (o : Fin 10240), i = ix3 b R o := ⟨i 0, i 1, i 2, eq_ix3 i⟩
  have hR := R.isLt
  rw [Cert.KernelIdeal.Tail.tail_apply]
  by_cases hv : 256 ≤ R.val ∧ R.val < 256 + 64
  · rw [dif_pos hv]
    exact (Cert.ReferenceIdeal.Row.out_video _ _ b R o hv.1 (by omega)).symm
  · rw [dif_neg hv]
    by_cases ht : 0 ≤ R.val ∧ R.val < 0 + 256
    · rw [dif_pos ht]
      exact (Cert.ReferenceIdeal.Row.out_text _ _ b R o (by omega)).symm
    · rw [dif_neg ht]
      have h320 : 320 ≤ R.val := by omega
      rw [Cert.KernelIdeal.Arr.fused_rows m c (ix3 b R o) h320, V_text, V_main_arg1,
        Cert.ReferenceIdeal.Row.out_fused _ _ b R o h320]
      rfl

end Cert.Proof.Bridge

end
-- ==== Proof.lean ====
/-
  Cross-attention of repeated video rows over text rows, fused with the rows themselves: the kernel against its reference.

  Each of the 64 video rows of a batch is repeated twenty times; every repeated row attends over the batch's 256 text rows —
  scaled scores, softmax, weighted sum of the text rows — and is added to the result. The output stacks, per batch, the text rows,
  the video rows and the 1280 fused rows. The kernel computes the fused rows block by block (eight video rows, 160 output rows per grid
  point) straight into rows 320 … 1599 of the output and lets the host overwrite rows 0 … 319 with the text and the video rows; the
  reference computes everything on whole arrays and concatenates. At the extended reals both are the same function of the two
  arguments: the matrix products are the same sums, the softmax the same maximum, exponentials, sum and quotient, the rounding of the
  text to a shorter format the identity, and the last addition commutes. The precondition (finite inputs) is not used.

  The three frames: the two kernel programs' are the generated frame certificates; the reference's is its run with the result dropped.
  Nothing was rewritten by the idealization, so there is nothing to preserve. The algebraic claim: the kernel program's run ends with
  its result buffer at the host lines after the region applied to what the region left (`Bridge.result_eq` reads this as the reference's
  result term), the reference's run with its result at that term.
-/
import proofs.«128927_j21234318311826_2_alg».proof.Defs
import proofs.«128927_j21234318311826_2_alg».proof.Proof.Gen.Kernel
import proofs.«128927_j21234318311826_2_alg».proof.Proof.Gen.Kernel.Frame
import proofs.«128927_j21234318311826_2_alg».proof.Proof.Gen.KernelIdeal
import proofs.«128927_j21234318311826_2_alg».proof.Proof.Gen.KernelIdeal.Frame
import proofs.«128927_j21234318311826_2_alg».proof.Proof.Gen.ReferenceIdeal
import proofs.«128927_j21234318311826_2_alg».proof.Proof.Gen.Pre_finite_inputs
import proofs.«128927_j21234318311826_2_alg».proof.Proof.RefRunP
import proofs.«128927_j21234318311826_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result buffer at the reference's result term of the argument arrays, the arguments unchanged. -/
theorem algebraic : Cert.algebraic_KernelIdeal_ReferenceIdeal := by
  intro m ρ m' ρ' _ hagree
  refine ⟨fun c => Cert.ReferenceIdeal.ReadP.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Gen.run_main m ρ)
    · exact ((h c).2 Cert.KernelIdeal.main_v3 (Pipeline.mem_restRefs_of Cert.KernelIdeal.main_v3 (by decide) (by decide))).trans
        (Cert.Proof.Bridge.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).1 1).trans (((Cert.KernelIdeal.Gen.dats m 0 c).arrAt_in 1 rfl _).trans
        ((Cert.KernelIdeal.Gen.A_eq m c 1).trans (Cert.KernelIdeal.Gen.V_main_arg1 m c)))
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v18_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
